-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel

variable [Facts]

def fn {F : FTy → Type} [FloatOps F] (main_arg0 : FVec F S4096x3 .f32) (main_arg1 : IVec S4096 32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  main_v3
-- ==== Kernel.lean ====
abbrev S4096x3 : Shape := ⟨2, ![4096, 3]⟩
abbrev S4096 : Shape := ⟨1, ![4096]⟩
abbrev S3x4096 : Shape := ⟨2, ![3, 4096]⟩
abbrev S4096x1 : Shape := ⟨2, ![4096, 1]⟩
abbrev S1x4096 : Shape := ⟨2, ![1, 4096]⟩
abbrev S4096x4096 : Shape := ⟨2, ![4096, 4096]⟩
abbrev S512x3 : Shape := ⟨2, ![512, 3]⟩
abbrev S3x512 : Shape := ⟨2, ![3, 512]⟩
abbrev S512x1 : Shape := ⟨2, ![512, 1]⟩
abbrev S1x512 : Shape := ⟨2, ![1, 512]⟩
abbrev S512x512 : Shape := ⟨2, ![512, 512]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S3x4096, .f32⟩
  | .hbm, ⟨3, _⟩ => ⟨S4096x1, .i32⟩
  | .hbm, ⟨4, _⟩ => ⟨S1x4096, .i32⟩
  | .hbm, ⟨5, _⟩ => ⟨S4096x4096, .f32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S4096x4096, .i1⟩
  | .local _ .vmem, ⟨0, _⟩ => ⟨S512x3, .f32⟩
  | .local _ .vmem, ⟨1, _⟩ => ⟨S512x3, .f32⟩
  | .local _ .vmem, ⟨2, _⟩ => ⟨S3x512, .f32⟩
  | .local _ .vmem, ⟨3, _⟩ => ⟨S3x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x512, .f32⟩
  | .local _ .vmem, ⟨9, _⟩ => ⟨S512x512, .f32⟩
  | .local _ .vmem, ⟨10, _⟩ => ⟨S512x512, .i32⟩
  | .local _ .vmem, ⟨11, _⟩ => ⟨S512x512, .i32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S4096x3_S3x4096_1_0 : S4096x3.Transposes [1, 0] S3x4096
  shapeCasts_S4096_S4096x1 : S4096.ShapeCasts S4096x1
  shapeCasts_S4096_S1x4096 : S4096.ShapeCasts S1x4096
  inb_S512x3_S512x3_0_0 : ∀ a, (![0, 0] : Fin 2 → Nat) a + S512x3.size a ≤ S512x3.size a
  h_S512x3 : 0 < S512x3.numel
  inb_S3x512_S3x512_0_0 : ∀ a, (![0, 0] : Fin 2 → Nat) a + S3x512.size a ≤ S3x512.size a
  h_S3x512 : 0 < S3x512.numel
  shapeCasts_S3x512_S3x512 : S3x512.ShapeCasts S3x512
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x512_o0_0_S1x512 : S3x512.Slices ![0, 0] S1x512
  slices_S3x512_o1_0_S1x512 : S3x512.Slices ![1, 0] S1x512
  slices_S3x512_o2_0_S1x512 : S3x512.Slices ![2, 0] S1x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  natLt_1_32 : 1 < 32
  bcast_S_S4096x4096 : S_.BroadcastsInDim S4096x4096 (![] : Fin 0 → Fin S4096x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S4096x3.size a
  hwx0_0 : ∀ i : grid0.Coords, EltTy.bits .f32 = 32 ∨ (Rect.block (s := S4096x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x4096.size a
  hwx0_1 : ∀ i : grid0.Coords, EltTy.bits .f32 = 32 ∨ (Rect.block (s := S3x4096) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .i32 = 32 ∨ (Rect.block (s := S4096x4096) S512x512.size (cc0_transform_5 i) (hinb0_5 i)).WholeWords (EltTy.packing .i32)

variable [Facts₀]

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x3 : Shape := ⟨2, ![4096, 3]⟩
abbrev S4096 : Shape := ⟨1, ![4096]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S4096x1x3, .f32⟩
  | .hbm, ⟨3, _⟩ => ⟨S1x4096x3, .f32⟩
  | .hbm, ⟨4, _⟩ => ⟨S4096x4096x3, .f32⟩
  | .hbm, ⟨5, _⟩ => ⟨S4096x4096x3, .f32⟩
  | .hbm, ⟨6, _⟩ => ⟨S4096x4096x3, .f32⟩
  | .hbm, ⟨7, _⟩ => ⟨S4096x4096x3, .f32⟩
  | .hbm, ⟨8, _⟩ => ⟨S_, .f32⟩
  | .hbm, ⟨9, _⟩ => ⟨S4096x4096, .f32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096, .i32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.Spec.lean ====
/-
  What the radius-graph layer computes, as mathematics, with no program in sight.

  Given `n = 4096` points `pos p = (pos p 0, pos p 1, pos p 2)` with extended-real coordinates and a graph label
  `batch p` (a 32-bit word) per point, the layer answers, for every ordered pair `(p, q)`:

    * `sq`       the squared Euclidean distance  (x_p - x_q)² + (y_p - y_q)² + (z_p - z_q)²;
    * `edgeBit`  whether `(p, q)` is an edge: same label, `p ≠ q` (compared as the 32-bit words of the two
                 positions), and squared distance at most the squared cutoff `25`;
    * `distVal`  the distance `√sq` on an edge and `0` off it — the square root is taken of `sq` on an edge and of
                 `1` elsewhere, exactly as both programs guard it, so no square root of a masked entry is formed.

  The three are stated first on scalars (six coordinates, two labels, two position words) and then as the two
  whole arrays `maskArr`, `distArr` over the index pairs. Also here: the one law of the extended reals that joins
  a three-term sum written `(a + b) + c` to the same sum written as `0 + ∑ k : Fin 3`, and the round trip of a
  bit through a 32-bit word (`b ↦ zero-extend ↦ (≠ 0)`), which is the identity.
-/
import Idealize.ShloMosaic.PureOps.Ideal
import Idealize.ShloMosaic.PureOps.Ideal.Laws
import Idealize.ShloMosaic.Lib.ValueIdx

noncomputable section

namespace Cert.Radius

open Idealize.ShloMosaic Idealize.ShloMosaic.ValueIdx

/-- The squared cutoff radius, `25`, as the single-precision word both programs carry. -/
abbrev cutoff2 : EReal := Ideal.ofBits .f32 0x41C80000#32
/-- `1`, the harmless argument given to the square root off the edges. -/
abbrev one : EReal := Ideal.ofBits .f32 0x3F800000#32
/-- `0`, the distance reported off the edges. -/
abbrev zero : EReal := Ideal.ofBits .f32 0x00000000#32

/-- Squared Euclidean distance of `(a0, a1, a2)` and `(b0, b1, b2)`. -/
def sq (a0 a1 a2 b0 b1 b2 : EReal) : EReal :=
  (a0 - b0) * (a0 - b0) + (a1 - b1) * (a1 - b1) + (a2 - b2) * (a2 - b2)

/-- The edge bit: equal labels `ga = gb`, distinct position words `ia ≠ ib`, squared distance within the cutoff. -/
def edgeBit (a0 a1 a2 b0 b1 b2 : EReal) (ga gb ia ib : BitVec 32) : BitVec 1 :=
  IntOp.andi (IntOp.andi (IntOp.cmpi .eq ga gb) (IntOp.cmpi .ne ia ib))
    (Ideal.cmp .ole (sq a0 a1 a2 b0 b1 b2) cutoff2)

/-- The reported distance: `√sq` on an edge, `0` off it (the root taken of `1` off the edges). -/
def distVal (a0 a1 a2 b0 b1 b2 : EReal) (ga gb ia ib : BitVec 32) : EReal :=
  Scalar.select (edgeBit a0 a1 a2 b0 b1 b2 ga gb ia ib)
    (Ideal.sqrt (Scalar.select (edgeBit a0 a1 a2 b0 b1 b2 ga gb ia ib) (sq a0 a1 a2 b0 b1 b2) one)) zero

/-- Equal coordinates, labels and position words give equal distances and equal edge bits. -/
theorem distVal_congr {a0 a1 a2 b0 b1 b2 a0' a1' a2' b0' b1' b2' : EReal} {ga gb ia ib ga' gb' ia' ib' : BitVec 32}
    (h0 : a0 = a0') (h1 : a1 = a1') (h2 : a2 = a2') (k0 : b0 = b0') (k1 : b1 = b1') (k2 : b2 = b2')
    (hga : ga = ga') (hgb : gb = gb') (hia : ia = ia') (hib : ib = ib') :
    distVal a0 a1 a2 b0 b1 b2 ga gb ia ib = distVal a0' a1' a2' b0' b1' b2' ga' gb' ia' ib' := by
  subst h0 h1 h2 k0 k1 k2 hga hgb hia hib; rfl
theorem edgeBit_congr {a0 a1 a2 b0 b1 b2 a0' a1' a2' b0' b1' b2' : EReal} {ga gb ia ib ga' gb' ia' ib' : BitVec 32}
    (h0 : a0 = a0') (h1 : a1 = a1') (h2 : a2 = a2') (k0 : b0 = b0') (k1 : b1 = b1') (k2 : b2 = b2')
    (hga : ga = ga') (hgb : gb = gb') (hia : ia = ia') (hib : ib = ib') :
    edgeBit a0 a1 a2 b0 b1 b2 ga gb ia ib = edgeBit a0' a1' a2' b0' b1' b2' ga' gb' ia' ib' := by
  subst h0 h1 h2 k0 k1 k2 hga hgb hia hib; rfl

/-- The point arrays: `n` rows of three coordinates, and one label per point. -/
abbrev Pos := (⟨2, ![4096, 3]⟩ : Shape).Idx → EReal
abbrev Labels := (⟨1, ![4096]⟩ : Shape).Idx → BitVec 32
abbrev Pairs := (⟨2, ![4096, 4096]⟩ : Shape).Idx

/-- The edge mask over all ordered pairs `(p, q)`. -/
def maskAt (pos : Pos) (batch : Labels) (p q : Fin 4096) : BitVec 1 :=
  edgeBit (pos (ix2 p (0 : Fin 3))) (pos (ix2 p (1 : Fin 3))) (pos (ix2 p (2 : Fin 3)))
    (pos (ix2 q (0 : Fin 3))) (pos (ix2 q (1 : Fin 3))) (pos (ix2 q (2 : Fin 3)))
    (batch (ix1 p)) (batch (ix1 q)) (BitVec.ofNat 32 p.val) (BitVec.ofNat 32 q.val)

/-- The distances over all ordered pairs `(p, q)`. -/
def distAt (pos : Pos) (batch : Labels) (p q : Fin 4096) : EReal :=
  distVal (pos (ix2 p (0 : Fin 3))) (pos (ix2 p (1 : Fin 3))) (pos (ix2 p (2 : Fin 3)))
    (pos (ix2 q (0 : Fin 3))) (pos (ix2 q (1 : Fin 3))) (pos (ix2 q (2 : Fin 3)))
    (batch (ix1 p)) (batch (ix1 q)) (BitVec.ofNat 32 p.val) (BitVec.ofNat 32 q.val)

/-- Point number `b · 512 + r`: row `r` of the `b`-th run of 512 points (the tiles cut the points into 8 such runs). -/
def pt (b : Fin 8) (r : Fin 512) : Fin 4096 := ⟨b.val * 512 + r.val, by have := b.isLt; have := r.isLt; omega⟩

/-- The mask as an array indexed by pairs. -/
def maskArr (pos : Pos) (batch : Labels) : Pairs → BitVec 1 :=
  fun g => maskAt pos batch ⟨(g 0).val, (g 0).isLt⟩ ⟨(g 1).val, (g 1).isLt⟩

/-- The distances as an array indexed by pairs. -/
def distArr (pos : Pos) (batch : Labels) : Pairs → EReal :=
  fun g => distAt pos batch ⟨(g 0).val, (g 0).isLt⟩ ⟨(g 1).val, (g 1).isLt⟩

/-- A sum of three terms started from `0` is the three terms added left to right: addition of extended reals is
    associative with unit `0`, infinities included, so no finiteness is asked. -/
theorem zero_add_sum_three (f : Fin 3 → EReal) : zero + ∑ k : Fin 3, f k = f 0 + f 1 + f 2 := by
  rw [show zero = 0 from Ideal.ofBits_zero_f32, zero_add, Fin.sum_univ_three]

/-- A bit, zero-extended to a word and tested against `0`, is the bit. -/
theorem ne_zero_setWidth (b : BitVec 1) : IntOp.cmpi .ne (b.setWidth 32) 0#32 = b := by
  by_cases h : b = 1#1
  · subst h; decide
  · obtain rfl := eq_zero_of_ne_one h; decide

/-- The position word of row `r` of block `a` of 512 rows: `a · 512 + r`, formed in 32-bit arithmetic, is the word of
    the natural number `a · 512 + r`. -/
theorem word_block_row (a r : Nat) :
    IntOp.addi (IntOp.muli (BitVec.ofNat 32 a) 512#32) (BitVec.ofNat 32 r) = BitVec.ofNat 32 (a * 512 + r) := by
  show BitVec.ofNat 32 a * BitVec.ofNat 32 512 + BitVec.ofNat 32 r = _
  rw [← BitVec.ofNat_mul, ← BitVec.ofNat_add]

end Cert.Radius

end
-- ==== Proof.RefValue.lean ====
/-
  The reference program computes the specification.

  The reference forms all differences `pos p k - pos q k` as one `n × n × 3` array, squares it, and sums the last
  axis starting from `0`; it compares labels and position words through broadcasts of the two vectors to `n × n`;
  it guards the square root by the mask on both sides. Read at a pair `g = (p, q)` — each broadcast at the one
  operand index it copies, the sum over `k < 3` as its three terms — the two results are `distArr` and `maskArr` of
  the argument arrays. The only law used is that `0 + (a + b + c)` is `a + b + c` on the extended reals.
-/
import proofs.«122007_j29265907155594_1_alg».proof.Proof.Gen.ReferenceIdeal.Read
import proofs.«122007_j29265907155594_1_alg».proof.Proof.Spec

noncomputable section

namespace Cert.ReferenceIdeal.RefValue

open Cert.ReferenceIdeal Cert.ReferenceIdeal.Read Cert.Radius
open Idealize.ShloMosaic Idealize.ShloMosaic.ValueIdx

/-- The pair `g`'s first point, coordinate `k`: where the chain of broadcasts on the left operand of the
    subtraction reads the positions. -/
theorem left_idx (g : S4096x4096.Idx) (k : Fin 3) :
    idx_main_v0 (idx_main_v2 (idx_main_v6 g k)) = ix2 (⟨(g 0).val, (g 0).isLt⟩ : Fin 4096) k :=
  funext fun a => Fin.ext (by match a with | ⟨0, _⟩ => rfl | ⟨1, _⟩ => rfl)

/-- The pair's second point, coordinate `k`: where the right operand reads them. -/
theorem right_idx (g : S4096x4096.Idx) (k : Fin 3) :
    idx_main_v1 (idx_main_v3 (idx_main_v6 g k)) = ix2 (⟨(g 1).val, (g 1).isLt⟩ : Fin 4096) k :=
  funext fun a => Fin.ext (by match a with | ⟨0, _⟩ => rfl | ⟨1, _⟩ => rfl)

/-- The label of the pair's first point, and of its second. -/
theorem label_left_idx (g : S4096x4096.Idx) : idx_main_v7 (idx_main_v9 g) = ix1 (⟨(g 0).val, (g 0).isLt⟩ : Fin 4096) :=
  funext fun a => Fin.ext (by match a with | ⟨0, _⟩ => rfl)
theorem label_right_idx (g : S4096x4096.Idx) : idx_main_v8 (idx_main_v10 g) = ix1 (⟨(g 1).val, (g 1).isLt⟩ : Fin 4096) :=
  funext fun a => Fin.ext (by match a with | ⟨0, _⟩ => rfl)

/-- The squared distance the reference forms at a pair: `0` plus the three squared differences. -/
theorem sq_apply (x0 : Pos) (g : S4096x4096.Idx) :
    val_main_v6 (F := Ideal) x0 g
      = sq (x0 (ix2 (⟨(g 0).val, (g 0).isLt⟩ : Fin 4096) (0 : Fin 3))) (x0 (ix2 (⟨(g 0).val, (g 0).isLt⟩ : Fin 4096) (1 : Fin 3)))
          (x0 (ix2 (⟨(g 0).val, (g 0).isLt⟩ : Fin 4096) (2 : Fin 3)))
          (x0 (ix2 (⟨(g 1).val, (g 1).isLt⟩ : Fin 4096) (0 : Fin 3))) (x0 (ix2 (⟨(g 1).val, (g 1).isLt⟩ : Fin 4096) (1 : Fin 3)))
          (x0 (ix2 (⟨(g 1).val, (g 1).isLt⟩ : Fin 4096) (2 : Fin 3))) := by
  rw [val_main_v6_apply]
  simp only [val_main_v5_apply, val_main_v4_apply, val_main_v2_apply, val_main_v3_apply, val_main_v0_apply,
    val_main_v1_apply, left_idx, right_idx, Ideal.subf_def, Ideal.mulf_def]
  exact zero_add_sum_three _

/-- The mask the reference forms at a pair is the specification's edge bit. -/
theorem mask_apply (x0 : Pos) (x1 : Labels) (g : S4096x4096.Idx) :
    val_main_v21 (F := Ideal) x0 x1 g = maskArr x0 x1 g := by
  rw [val_main_v21_apply, val_main_v18_apply, val_main_v11_apply, val_main_v17_apply, val_main_v20_apply,
    val_main_v9_apply, val_main_v10_apply, val_main_v7_apply, val_main_v8_apply,
    val_main_v15_apply, val_main_v16_apply, val_main_v13_apply, val_main_v14_apply, val_main_v12_apply, val_main_v12_apply,
    val_main_v19_apply, val_main_cst_0_apply, sq_apply, label_left_idx, label_right_idx]
  rfl

/-- The reference's mask result is `maskArr` of its arguments. -/
theorem mask_eq (x0 : Pos) (x1 : Labels) : val_main_v21 (F := Ideal) x0 x1 = maskArr x0 x1 :=
  funext fun g => mask_apply x0 x1 g

/-- The reference's distance result is `distArr` of its arguments: the guarded root of the squared distance on the
    mask, `0` off it. -/
theorem dist_eq (x0 : Pos) (x1 : Labels) : val_main_v24 (F := Ideal) x0 x1 = distArr x0 x1 := by
  funext g
  rw [val_main_v24_apply, val_main_v23_apply, val_main_v22_apply, mask_apply, sq_apply,
    val_main_call1_v1_apply, val_main_call1_v0_apply, val_main_cst_2_apply,
    val_main_call0_v1_apply, val_main_call0_v0_apply, val_main_cst_1_apply]
  rfl

end Cert.ReferenceIdeal.RefValue

end
-- ==== Proof.KernelTile.lean ====
/-
  One tile of the kernel, read at one entry.

  At grid point `(bi, bj)` the kernel body holds four blocks: 512 rows of the positions (`x0`, 512 × 3), 512 columns of
  the transposed positions (`x1`, 3 × 512), 512 labels as a column (`x2`, 512 × 1) and 512 labels as a row
  (`x3`, 1 × 512). It slices the three coordinate columns out of `x0` and the three coordinate rows out of `x1`,
  spreads each over the 512 × 512 tile, and works entry by entry from there; the position words are
  `bi · 512 + r` and `bj · 512 + s`, formed from the grid position and the tile's row and column counters.

  Read at the tile entry `(r, s)`: a column spread over the tile is the block at `(r, k)`, a row spread over the tile
  is the block at `(k, s)`, and every other operation is entry by entry — so the stored distance is `distVal` and the
  stored word is the zero-extended `edgeBit` of the six coordinates, the two labels and the two position words.
-/
import proofs.«122007_j29265907155594_1_alg».proof.Proof.Gen.KernelIdeal.Skeleton
import proofs.«122007_j29265907155594_1_alg».proof.Proof.Spec
import Idealize.ShloMosaic.Lib.Pipeline.Value
import Idealize.ShloMosaic.Lib.ValueLayout

noncomputable section

namespace Cert.KernelIdeal.Tile

open Cert.KernelIdeal Cert.KernelIdeal.Gen Cert.Radius
open Idealize.ShloMosaic Idealize.ShloMosaic.ValueIdx

/-! ## Layout: a coordinate column, a coordinate row, a label column, a label row, each spread over the tile -/

section Layout
variable {α : Type}

/-- Column `k` of a 512 × 3 block, spread over the tile's 512 columns, reads the block at `(r, k)`. -/
theorem col_spread (k : Nat) (x : (⟨2, ![512, 3]⟩ : Shape).Idx → α)
    (hs : (⟨2, ![512, 3]⟩ : Shape).Slices ![0, k] ⟨2, ![512, 1]⟩)
    (hb : (⟨2, ![512, 1]⟩ : Shape).Broadcasts ⟨2, ![512, 512]⟩) (r s : Fin 512) (kk : Fin 3) (hk : kk.val = k) :
    broadcastTo ⟨2, ![512, 512]⟩ (extractStridedSlice ⟨2, ![512, 1]⟩ ![0, k] x hs) hb (ix2 r s) = x (ix2 r kk) := by
  refine (broadcastTo_apply _ hb (ix2 r s) (ix2 r (0 : Fin 1)) fun a => ?_).trans ?_
  · match a with
    | ⟨0, _⟩ => show r.val = if (512 : Nat) = 1 then 0 else r.val; rw [if_neg (by decide)]
    | ⟨1, _⟩ => show 0 = if (1 : Nat) = 1 then 0 else s.val; rw [if_pos rfl]
  · exact slice2_axis1_apply k x hs r (0 : Fin 1) kk (by rw [hk]; rfl)

/-- Row `k` of a 3 × 512 block, spread over the tile's 512 rows, reads the block at `(k, s)`. -/
theorem row_spread (k : Nat) (x : (⟨2, ![3, 512]⟩ : Shape).Idx → α)
    (hs : (⟨2, ![3, 512]⟩ : Shape).Slices ![k, 0] ⟨2, ![1, 512]⟩)
    (hb : (⟨2, ![1, 512]⟩ : Shape).Broadcasts ⟨2, ![512, 512]⟩) (r s : Fin 512) (kk : Fin 3) (hk : kk.val = k) :
    broadcastTo ⟨2, ![512, 512]⟩ (extractStridedSlice ⟨2, ![1, 512]⟩ ![k, 0] x hs) hb (ix2 r s) = x (ix2 kk s) :=
  (broadcastTo_1b_ab_apply _ hb r s).trans (slice2_axis0_apply k x hs (0 : Fin 1) s kk (by rw [hk]; rfl))

/-- A 512 × 1 column spread over the tile reads the column at row `r`. -/
theorem colvec_spread (x : (⟨2, ![512, 1]⟩ : Shape).Idx → α)
    (hb : (⟨2, ![512, 1]⟩ : Shape).Broadcasts ⟨2, ![512, 512]⟩) (r s : Fin 512) :
    broadcastTo ⟨2, ![512, 512]⟩ x hb (ix2 r s) = x (ix2 r (0 : Fin 1)) := by
  refine broadcastTo_apply _ hb (ix2 r s) (ix2 r (0 : Fin 1)) fun a => ?_
  match a with
  | ⟨0, _⟩ => show r.val = if (512 : Nat) = 1 then 0 else r.val; rw [if_neg (by decide)]
  | ⟨1, _⟩ => show 0 = if (1 : Nat) = 1 then 0 else s.val; rw [if_pos rfl]

/-- A 1 × 512 row spread over the tile reads the row at column `s`. -/
theorem rowvec_spread (x : (⟨2, ![1, 512]⟩ : Shape).Idx → α)
    (hb : (⟨2, ![1, 512]⟩ : Shape).Broadcasts ⟨2, ![512, 512]⟩) (r s : Fin 512) :
    broadcastTo ⟨2, ![512, 512]⟩ x hb (ix2 r s) = x (ix2 (0 : Fin 1) s) :=
  broadcastTo_1b_ab_apply x hb r s

end Layout

/-! ## The entry-by-entry operations on words, at an index -/

theorem andi_apply {s : Shape} {w : Nat} (a b : IVec s w) (j : s.Idx) : andi a b j = IntOp.andi (a j) (b j) := rfl
theorem addi_apply {s : Shape} {w : Nat} (a b : IVec s w) (j : s.Idx) : addi a b j = IntOp.addi (a j) (b j) := rfl
theorem cmpi_apply {s : Shape} {w : Nat} (p : CmpIPredicate) (a b : IVec s w) (j : s.Idx) :
    cmpi p a b j = IntOp.cmpi p (a j) (b j) := rfl
theorem sqrt_apply {s : Shape} {φ : FTy} (a : FVec Ideal s φ) (j : s.Idx) : sqrt a j = Ideal.sqrt (a j) := rfl

/-! ## The tile's values at `(r, s)` -/

/-- The squared distance at `(r, s)`: of row `r` of the position block and column `s` of the transposed one. -/
theorem sq_at (x0 : Vec Ideal S512x3 .f32) (x1 : Vec Ideal S3x512 .f32) (r s : Fin 512) :
    k0_pay3 (F := Ideal) x0 x1 (ix2 r s)
      = sq (x0 (ix2 r (0 : Fin 3))) (x0 (ix2 r (1 : Fin 3))) (x0 (ix2 r (2 : Fin 3)))
          (x1 (ix2 (0 : Fin 3) s)) (x1 (ix2 (1 : Fin 3) s)) (x1 (ix2 (2 : Fin 3) s)) := by
  simp only [k0_pay3, addf_apply, mulf_apply, subf_apply, shapeCast_self]
  rw [col_spread 0 x0 _ _ r s (0 : Fin 3) rfl, col_spread 1 x0 _ _ r s (1 : Fin 3) rfl, col_spread 2 x0 _ _ r s (2 : Fin 3) rfl,
    row_spread 0 x1 _ _ r s (0 : Fin 3) rfl, row_spread 1 x1 _ _ r s (1 : Fin 3) rfl, row_spread 2 x1 _ _ r s (2 : Fin 3) rfl]
  rfl

/-- The edge bit at `(r, s)` of the tile at grid position `i = (bi, bj)`. -/
theorem edge_at (i : grid0.Coords) (x0 : Vec Ideal S512x3 .f32) (x1 : Vec Ideal S3x512 .f32)
    (x2 : Vec Ideal S512x1 .i32) (x3 : Vec Ideal S1x512 .i32) (r s : Fin 512) :
    k0_pay4 (F := Ideal) i x0 x1 x2 x3 (ix2 r s)
      = edgeBit (x0 (ix2 r (0 : Fin 3))) (x0 (ix2 r (1 : Fin 3))) (x0 (ix2 r (2 : Fin 3)))
          (x1 (ix2 (0 : Fin 3) s)) (x1 (ix2 (1 : Fin 3) s)) (x1 (ix2 (2 : Fin 3) s))
          (x2 (ix2 r (0 : Fin 1))) (x3 (ix2 (0 : Fin 1) s))
          (BitVec.ofNat 32 ((i 0).val * 512 + r.val)) (BitVec.ofNat 32 ((i 1).val * 512 + s.val)) := by
  simp only [k0_pay4, andi_apply, addi_apply, cmpi_apply, cmpf_apply, broadcast_apply, shapeCast_self, sq_at]
  rw [colvec_spread x2 _ r s, rowvec_spread x3 _ r s, iota_single_apply, iota_single_apply]
  rw [show IntOp.addi (Scalar.muli (BitVec.ofNat 32 (i 0).val) 512#32) (BitVec.ofNat 32 (ix2 r s 0).val)
        = BitVec.ofNat 32 ((i 0).val * 512 + r.val) from word_block_row _ _,
    show IntOp.addi (Scalar.muli (BitVec.ofNat 32 (i 1).val) 512#32) (BitVec.ofNat 32 (ix2 r s 1).val)
        = BitVec.ofNat 32 ((i 1).val * 512 + s.val) from word_block_row _ _]
  rfl

/-- The distance the body stores at `(r, s)`: the guarded root on the edge bit, `0` off it. -/
theorem dist_at (i : grid0.Coords) (x0 : Vec Ideal S512x3 .f32) (x1 : Vec Ideal S3x512 .f32)
    (x2 : Vec Ideal S512x1 .i32) (x3 : Vec Ideal S1x512 .i32) (r s : Fin 512) :
    k0_pay1 (F := Ideal) (k0_pay4 i x0 x1 x2 x3) (k0_pay5 i x0 x1 x2 x3) (ix2 r s)
      = distVal (x0 (ix2 r (0 : Fin 3))) (x0 (ix2 r (1 : Fin 3))) (x0 (ix2 r (2 : Fin 3)))
          (x1 (ix2 (0 : Fin 3) s)) (x1 (ix2 (1 : Fin 3) s)) (x1 (ix2 (2 : Fin 3) s))
          (x2 (ix2 r (0 : Fin 1))) (x3 (ix2 (0 : Fin 1) s))
          (BitVec.ofNat 32 ((i 0).val * 512 + r.val)) (BitVec.ofNat 32 ((i 1).val * 512 + s.val)) := by
  simp only [k0_pay1, k0_pay5, select_apply, sqrt_apply, broadcast_apply, edge_at, sq_at]
  rfl

/-- The word the body stores at `(r, s)` for the mask: the edge bit, zero-extended. -/
theorem word_at (i : grid0.Coords) (x0 : Vec Ideal S512x3 .f32) (x1 : Vec Ideal S3x512 .f32)
    (x2 : Vec Ideal S512x1 .i32) (x3 : Vec Ideal S1x512 .i32) (r s : Fin 512) :
    k0_pay2 (k0_pay4 (F := Ideal) i x0 x1 x2 x3) (ix2 r s)
      = (edgeBit (x0 (ix2 r (0 : Fin 3))) (x0 (ix2 r (1 : Fin 3))) (x0 (ix2 r (2 : Fin 3)))
          (x1 (ix2 (0 : Fin 3) s)) (x1 (ix2 (1 : Fin 3) s)) (x1 (ix2 (2 : Fin 3) s))
          (x2 (ix2 r (0 : Fin 1))) (x3 (ix2 (0 : Fin 1) s))
          (BitVec.ofNat 32 ((i 0).val * 512 + r.val)) (BitVec.ofNat 32 ((i 1).val * 512 + s.val))).setWidth 32 := by
  simp only [k0_pay2, extui_apply, edge_at]

/-- `dist_at` at a tile index `y` not yet split into its row and column. -/
theorem dist_at_idx (i : grid0.Coords) (x0 : Vec Ideal S512x3 .f32) (x1 : Vec Ideal S3x512 .f32)
    (x2 : Vec Ideal S512x1 .i32) (x3 : Vec Ideal S1x512 .i32) (y : S512x512.Idx) :
    k0_pay1 (F := Ideal) (k0_pay4 i x0 x1 x2 x3) (k0_pay5 i x0 x1 x2 x3) y
      = distVal (x0 (ix2 (y 0) (0 : Fin 3))) (x0 (ix2 (y 0) (1 : Fin 3))) (x0 (ix2 (y 0) (2 : Fin 3)))
          (x1 (ix2 (0 : Fin 3) (y 1))) (x1 (ix2 (1 : Fin 3) (y 1))) (x1 (ix2 (2 : Fin 3) (y 1)))
          (x2 (ix2 (y 0) (0 : Fin 1))) (x3 (ix2 (0 : Fin 1) (y 1)))
          (BitVec.ofNat 32 ((i 0).val * 512 + (y 0).val)) (BitVec.ofNat 32 ((i 1).val * 512 + (y 1).val)) := by
  exact (congrArg (k0_pay1 (F := Ideal) (k0_pay4 i x0 x1 x2 x3) (k0_pay5 i x0 x1 x2 x3)) (eq_ix2 y)).trans
    (dist_at i x0 x1 x2 x3 (y 0) (y 1))

/-- `word_at` at a tile index `y` not yet split. -/
theorem word_at_idx (i : grid0.Coords) (x0 : Vec Ideal S512x3 .f32) (x1 : Vec Ideal S3x512 .f32)
    (x2 : Vec Ideal S512x1 .i32) (x3 : Vec Ideal S1x512 .i32) (y : S512x512.Idx) :
    k0_pay2 (k0_pay4 (F := Ideal) i x0 x1 x2 x3) y
      = (edgeBit (x0 (ix2 (y 0) (0 : Fin 3))) (x0 (ix2 (y 0) (1 : Fin 3))) (x0 (ix2 (y 0) (2 : Fin 3)))
          (x1 (ix2 (0 : Fin 3) (y 1))) (x1 (ix2 (1 : Fin 3) (y 1))) (x1 (ix2 (2 : Fin 3) (y 1)))
          (x2 (ix2 (y 0) (0 : Fin 1))) (x3 (ix2 (0 : Fin 1) (y 1)))
          (BitVec.ofNat 32 ((i 0).val * 512 + (y 0).val)) (BitVec.ofNat 32 ((i 1).val * 512 + (y 1).val))).setWidth 32 := by
  exact (congrArg (k0_pay2 (k0_pay4 (F := Ideal) i x0 x1 x2 x3)) (eq_ix2 y)).trans
    (word_at i x0 x1 x2 x3 (y 0) (y 1))

end Cert.KernelIdeal.Tile

end
-- ==== Proof.KernelWhole.lean ====
/-
  From tiles to the two result arrays.

  The 64 grid points `(bi, bj)` cut the `n × n` pairs into 512 × 512 tiles: tile `(bi, bj)` holds the pairs
  `(bi · 512 + r, bj · 512 + s)`. At that point the body is given rows `bi · 512 …` of the positions, columns
  `bj · 512 …` of their transpose (so: the coordinates of the points `bj · 512 + s`), and the labels of both runs of
  points — the transposed positions and the two label arrays are made from the arguments before the grid starts, by
  a transpose and two re-layouts of the label vector. So what a point writes back is the tile of `distArr` (first
  result) and of the zero-extended `maskArr` (second result) of the ARGUMENT arrays; the tiles cover every pair, so
  after the grid the first result array is `distArr` and the word array is the zero-extended `maskArr`. After the
  grid the program tests each word against `0`, which gives the bit back: the second result is `maskArr`.
-/
import proofs.«122007_j29265907155594_1_alg».proof.Proof.FrameKernelIdeal
import proofs.«122007_j29265907155594_1_alg».proof.Proof.KernelTile
import Idealize.ShloMosaic.Lib.Pipeline.Value
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.GenP Cert.KernelIdeal.Tile Cert.Radius
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the grid reads, made from the arguments before it starts -/

/-- The second window's array is the transpose of the positions. -/
theorem V_posT (c : Dev nD) :
    (V m c main_v0 : S3x4096.Idx → EReal)
      = transpose S3x4096 [1, 0] (m ((c : Thread nD τ).loc main_arg0)) Facts₀.transposes_S4096x3_S3x4096_1_0 := by
  show StableHlo.after hostOps0 (fun b => m (c, b)) (Proc.devRef .tc main_v0) = _
  after_results

/-- The third window's array is the label vector laid out as a column. -/
theorem V_bcol (c : Dev nD) :
    (V m c main_v1 : S4096x1.Idx → BitVec 32)
      = shapeCast S4096x1 (m ((c : Thread nD τ).loc main_arg1)) Facts₀.shapeCasts_S4096_S4096x1 := by
  show StableHlo.after hostOps0 (fun b => m (c, b)) (Proc.devRef .tc main_v1) = _
  after_results
  rfl

/-- The fourth window's array is the label vector laid out as a row. -/
theorem V_brow (c : Dev nD) :
    (V m c main_v2 : S1x4096.Idx → BitVec 32)
      = shapeCast S1x4096 (m ((c : Thread nD τ).loc main_arg1)) Facts₀.shapeCasts_S4096_S1x4096 := by
  show StableHlo.after hostOps0 (fun b => m (c, b)) (Proc.devRef .tc main_v2) = _
  after_results
  rfl

/-- A vector laid out as a column reads, at `(i, 0)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Where each window's block sits at a grid point -/

/-- The grid point's tile row `bi` and tile column `bj`. -/
abbrev bi (t : Fin cfg0.N) : Fin 8 := ⟨(grid0.coords t (0 : Fin 2)).val, (grid0.coords t (0 : Fin 2)).isLt⟩
abbrev bj (t : Fin cfg0.N) : Fin 8 := ⟨(grid0.coords t (1 : Fin 2)).val, (grid0.coords t (1 : Fin 2)).isLt⟩

/-- The printed index maps, decided over the 64 grid points: both outputs sit at block `(bi, bj)`; the positions and
    the label column move with `bi`, the transposed positions and the label row with `bj`. -/
theorem idx_facts : ∀ t : Fin cfg0.N,
    win0_4.index t (0 : Fin 2) = (grid0.coords t (0 : Fin 2)).val ∧ win0_4.index t (1 : Fin 2) = (grid0.coords t (1 : Fin 2)).val
    ∧ win0_5.index t (0 : Fin 2) = (grid0.coords t (0 : Fin 2)).val ∧ win0_5.index t (1 : Fin 2) = (grid0.coords t (1 : Fin 2)).val
    ∧ win0_0.index t (0 : Fin 2) = (grid0.coords t (0 : Fin 2)).val ∧ win0_0.index t (1 : Fin 2) = 0
    ∧ win0_1.index t (0 : Fin 2) = 0 ∧ win0_1.index t (1 : Fin 2) = (grid0.coords t (1 : Fin 2)).val
    ∧ win0_2.index t (0 : Fin 2) = (grid0.coords t (0 : Fin 2)).val ∧ win0_2.index t (1 : Fin 2) = 0
    ∧ win0_3.index t (0 : Fin 2) = 0 ∧ win0_3.index t (1 : Fin 2) = (grid0.coords t (1 : Fin 2)).val :=
  (by decide +kernel : ∀ t : Fin grid0.N, _)

/-- Every block position `(q0, q1)` is some grid point's, for both outputs. -/
theorem idx_onto : ∀ (q0 q1 : Fin 8), ∃ t : Fin cfg0.N, win0_4.index t = ![q0.val, q1.val] ∧ win0_5.index t = ![q0.val, q1.val] :=
  (by decide +kernel : ∀ (q0 q1 : Fin 8), ∃ t : Fin grid0.N, win0_4.index t = ![q0.val, q1.val] ∧ win0_5.index t = ![q0.val, q1.val])

/-! ## The input blocks at a grid point, read off the argument arrays -/

/-- Row `r` of the position block is point `bi · 512 + r`. -/
theorem pos_blk (c : Dev nD) (t : Fin cfg0.N) (r : Fin 512) (k : Fin 3) :
    (iblk m c 0 t : Vec Ideal S512x3 .f32) (ix2 r k) = m ((c : Thread nD τ).loc main_arg0) (ix2 (pt (bi t) r) k) := by
  obtain ⟨-, -, -, -, e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = (grid0.coords t (0 : Fin 2)).val * 512 + r.val; omega
  | ⟨1, _⟩ => show win0_0.index t (1 : Fin 2) * 3 + 1 * k.val = k.val; omega

/-- Column `s` of the transposed-position block is point `bj · 512 + s`. -/
theorem posT_blk (c : Dev nD) (t : Fin cfg0.N) (k : Fin 3) (s : Fin 512) :
    (iblk m c 1 t : Vec Ideal S3x512 .f32) (ix2 k s) = m ((c : Thread nD τ).loc main_arg0) (ix2 (pt (bj t) s) k) := by
  obtain ⟨-, -, -, -, -, -, e0, e1, -⟩ := idx_facts t
  show V m c main_v0 (((cfg0.win 1).blk t).view.emb (ix2 k s)) = _
  have he : ((cfg0.win 1).blk t).view.emb (ix2 k s) = (ix2 k (pt (bj t) s) : S3x4096.Idx) :=
    funext fun a => Fin.ext (by
      match a with
      | ⟨0, _⟩ => show win0_1.index t (0 : Fin 2) * 3 + 1 * k.val = k.val; omega
      | ⟨1, _⟩ => show win0_1.index t (1 : Fin 2) * 512 + 1 * s.val = (grid0.coords t (1 : Fin 2)).val * 512 + s.val; omega)
  refine (congrArg (V m c main_v0) he).trans ?_
  rw [V_posT]
  exact transpose_ix2_apply _ _ k (pt (bj t) s)

/-- Row `r` of the label column block is the label of point `bi · 512 + r`. -/
theorem bcol_blk (c : Dev nD) (t : Fin cfg0.N) (r : Fin 512) (u : Fin 1) :
    (iblk m c 2 t : Vec Ideal S512x1 .i32) (ix2 r u) = m ((c : Thread nD τ).loc main_arg1) (ix1 (pt (bi t) r)) := by
  obtain ⟨-, -, -, -, -, -, -, -, e0, e1, -⟩ := idx_facts t
  show V m c main_v1 (((cfg0.win 2).blk t).view.emb (ix2 r u)) = _
  have he : ((cfg0.win 2).blk t).view.emb (ix2 r u) = (ix2 (pt (bi t) r) (0 : Fin 1) : S4096x1.Idx) :=
    funext fun a => Fin.ext (by
      match a with
      | ⟨0, _⟩ => show win0_2.index t (0 : Fin 2) * 512 + 1 * r.val = (grid0.coords t (0 : Fin 2)).val * 512 + r.val; omega
      | ⟨1, _⟩ => show win0_2.index t (1 : Fin 2) * 1 + 1 * u.val = 0; omega)
  refine (congrArg (V m c main_v1) he).trans ?_
  rw [V_bcol]
  exact shapeCast_a_a1_apply _ _ _ _

/-- Column `s` of the label row block is the label of point `bj · 512 + s`. -/
theorem brow_blk (c : Dev nD) (t : Fin cfg0.N) (u : Fin 1) (s : Fin 512) :
    (iblk m c 3 t : Vec Ideal S1x512 .i32) (ix2 u s) = m ((c : Thread nD τ).loc main_arg1) (ix1 (pt (bj t) s)) := by
  obtain ⟨-, -, -, -, -, -, -, -, -, -, e0, e1⟩ := idx_facts t
  show V m c main_v2 (((cfg0.win 3).blk t).view.emb (ix2 u s)) = _
  have he : ((cfg0.win 3).blk t).view.emb (ix2 u s) = (ix2 (0 : Fin 1) (pt (bj t) s) : S1x4096.Idx) :=
    funext fun a => Fin.ext (by
      match a with
      | ⟨0, _⟩ => show win0_3.index t (0 : Fin 2) * 1 + 1 * u.val = 0; omega
      | ⟨1, _⟩ => show win0_3.index t (1 : Fin 2) * 512 + 1 * s.val = (grid0.coords t (1 : Fin 2)).val * 512 + s.val; omega)
  refine (congrArg (V m c main_v2) he).trans ?_
  rw [V_brow]
  exact shapeCast_a_1a_apply _ _ _ _

/-! ## What a grid point writes back -/

theorem hz : (![0, 0] : Fin 2 → Nat) = fun _ => 0 := funext fun a => by fin_cases a <;> rfl

/-- Grid point `t` writes back, to the first result, tile `t` of `distArr` of the argument arrays. -/
theorem dist_flushed (c : Dev nD) (t : Fin cfg0.N) :
    (dats m 0 c).flushed 4 t = ((cfg0.win 4).blk t).view.read (Elt Ideal)
      (distArr (m ((c : Thread nD τ).loc main_arg0)) (m ((c : Thread nD τ).loc main_arg1))) := by
  obtain ⟨e0, e1, -⟩ := idx_facts t
  show (cfg0.win 4).cut (grid0.coords t) ((dats m 0 c).after 4 t) = _
  rw [after0_4]
  unfold out0_4
  rw [View.canon_unit_zero hz]
  simp only [View.ld_unit_zero (S := S512x3) hz, View.ld_unit_zero (S := S3x512) hz, View.ld_unit_zero (S := S512x1) hz,
    View.ld_unit_zero (S := S1x512) hz]
  funext y
  show k0_pay1 (k0_pay4 (grid0.coords t) (iblk m c 0 t) (iblk m c 1 t) (iblk m c 2 t) (iblk m c 3 t))
        (k0_pay5 (grid0.coords t) (iblk m c 0 t) (iblk m c 1 t) (iblk m c 2 t) (iblk m c 3 t)) y
      = distArr _ _ (((cfg0.win 4).blk t).view.emb y)
  refine (dist_at_idx (grid0.coords t) (iblk m c 0 t) (iblk m c 1 t) (iblk m c 2 t) (iblk m c 3 t) y).trans ?_
  have hp : (⟨(((cfg0.win 4).blk t).view.emb y (0 : Fin 2)).val, (((cfg0.win 4).blk t).view.emb y (0 : Fin 2)).isLt⟩ : Fin 4096)
      = pt (bi t) (y 0) :=
    Fin.ext (by show win0_4.index t (0 : Fin 2) * 512 + 1 * (y 0).val = (grid0.coords t (0 : Fin 2)).val * 512 + (y 0).val; omega)
  have hq : (⟨(((cfg0.win 4).blk t).view.emb y (1 : Fin 2)).val, (((cfg0.win 4).blk t).view.emb y (1 : Fin 2)).isLt⟩ : Fin 4096)
      = pt (bj t) (y 1) :=
    Fin.ext (by show win0_4.index t (1 : Fin 2) * 512 + 1 * (y 1).val = (grid0.coords t (1 : Fin 2)).val * 512 + (y 1).val; omega)
  refine Eq.trans ?_ (congrArg₂ (distAt (m ((c : Thread nD τ).loc main_arg0)) (m ((c : Thread nD τ).loc main_arg1))) hp hq).symm
  exact distVal_congr (pos_blk m c t (y 0) 0) (pos_blk m c t (y 0) 1) (pos_blk m c t (y 0) 2)
    (posT_blk m c t 0 (y 1)) (posT_blk m c t 1 (y 1)) (posT_blk m c t 2 (y 1))
    (bcol_blk m c t (y 0) 0) (brow_blk m c t 0 (y 1)) rfl rfl

/-- The mask as the words the grid stores: each bit zero-extended. -/
def maskWords (pos : Radius.Pos) (batch : Radius.Labels) : Radius.Pairs → BitVec 32 := fun g => (maskArr pos batch g).setWidth 32

/-- Grid point `t` writes back, to the word array, tile `t` of the zero-extended `maskArr`. -/
theorem mask_flushed (c : Dev nD) (t : Fin cfg0.N) :
    (dats m 0 c).flushed 5 t = ((cfg0.win 5).blk t).view.read (Elt Ideal)
      (maskWords (m ((c : Thread nD τ).loc main_arg0)) (m ((c : Thread nD τ).loc main_arg1))) := by
  obtain ⟨-, -, e0, e1, -⟩ := idx_facts t
  show (cfg0.win 5).cut (grid0.coords t) ((dats m 0 c).after 5 t) = _
  rw [after0_5]
  unfold out0_5
  rw [View.canon_unit_zero hz]
  simp only [View.ld_unit_zero (S := S512x3) hz, View.ld_unit_zero (S := S3x512) hz, View.ld_unit_zero (S := S512x1) hz,
    View.ld_unit_zero (S := S1x512) hz]
  funext y
  show k0_pay2 (k0_pay4 (grid0.coords t) (iblk m c 0 t) (iblk m c 1 t) (iblk m c 2 t) (iblk m c 3 t)) y
      = maskWords _ _ (((cfg0.win 5).blk t).view.emb y)
  refine (word_at_idx (grid0.coords t) (iblk m c 0 t) (iblk m c 1 t) (iblk m c 2 t) (iblk m c 3 t) y).trans ?_
  have hp : (⟨(((cfg0.win 5).blk t).view.emb y (0 : Fin 2)).val, (((cfg0.win 5).blk t).view.emb y (0 : Fin 2)).isLt⟩ : Fin 4096)
      = pt (bi t) (y 0) :=
    Fin.ext (by show win0_5.index t (0 : Fin 2) * 512 + 1 * (y 0).val = (grid0.coords t (0 : Fin 2)).val * 512 + (y 0).val; omega)
  have hq : (⟨(((cfg0.win 5).blk t).view.emb y (1 : Fin 2)).val, (((cfg0.win 5).blk t).view.emb y (1 : Fin 2)).isLt⟩ : Fin 4096)
      = pt (bj t) (y 1) :=
    Fin.ext (by show win0_5.index t (1 : Fin 2) * 512 + 1 * (y 1).val = (grid0.coords t (1 : Fin 2)).val * 512 + (y 1).val; omega)
  refine Eq.trans ?_ (congrArg (BitVec.setWidth 32)
    (congrArg₂ (maskAt (m ((c : Thread nD τ).loc main_arg0)) (m ((c : Thread nD τ).loc main_arg1))) hp hq)).symm
  exact congrArg (BitVec.setWidth 32) (edgeBit_congr (pos_blk m c t (y 0) 0) (pos_blk m c t (y 0) 1) (pos_blk m c t (y 0) 2)
    (posT_blk m c t 0 (y 1)) (posT_blk m c t 1 (y 1)) (posT_blk m c t 2 (y 1))
    (bcol_blk m c t (y 0) 0) (brow_blk m c t 0 (y 1)) rfl rfl)

/-! ## The tiles cover every pair -/

/-- A pair is in point `t`'s tile of the first result iff each coordinate is in the tile's range on its axis. -/
theorem mem_blk4 (t : Fin cfg0.N) (g : S4096x4096.Idx) :
    g ∈ ((cfg0.win 4).blk t).view.set ↔ ∀ a : Fin 2, win0_4.index t a * S512x512.size a ≤ (g a).val
      ∧ (g a).val < win0_4.index t a * S512x512.size a + S512x512.size a := by
  show g ∈ ((View.whole main_v3_0).slice (win0_4.rect t)).set ↔ _
  rw [View.set_slice_whole, Rect.mem_set_unit]
  exact Iff.rfl
/-- The same for the word array. -/
theorem mem_blk5 (t : Fin cfg0.N) (g : S4096x4096.Idx) :
    g ∈ ((cfg0.win 5).blk t).view.set ↔ ∀ a : Fin 2, win0_5.index t a * S512x512.size a ≤ (g a).val
      ∧ (g a).val < win0_5.index t a * S512x512.size a + S512x512.size a := by
  show g ∈ ((View.whole main_v3_1).slice (win0_5.rect t)).set ↔ _
  rw [View.set_slice_whole, Rect.mem_set_unit]
  exact Iff.rfl

/-- Pair `(p, q)` lies in the tile of the grid point at block `(p / 512, q / 512)`. -/
theorem cover4 (g : S4096x4096.Idx) :
    ∃ t : Fin cfg0.N, (cfg0.win 4).flush t = true ∧ g ∈ ((cfg0.win 4).blk t).view.set := by
  have h0 : (g 0).val < 4096 := (g 0).isLt
  have h1 : (g 1).val < 4096 := (g 1).isLt
  obtain ⟨t, ht, -⟩ := idx_onto ⟨(g 0).val / 512, by omega⟩ ⟨(g 1).val / 512, by omega⟩
  have q0 : win0_4.index t (0 : Fin 2) = (g 0).val / 512 := congrFun ht 0
  have q1 : win0_4.index t (1 : Fin 2) = (g 1).val / 512 := congrFun ht 1
  refine ⟨t, flush0_4 t, ?_⟩
  rw [mem_blk4]
  intro a
  match a with
  | ⟨0, _⟩ => show win0_4.index t (0 : Fin 2) * 512 ≤ (g 0).val ∧ (g 0).val < win0_4.index t (0 : Fin 2) * 512 + 512; omega
  | ⟨1, _⟩ => show win0_4.index t (1 : Fin 2) * 512 ≤ (g 1).val ∧ (g 1).val < win0_4.index t (1 : Fin 2) * 512 + 512; omega
theorem cover5 (g : S4096x4096.Idx) :
    ∃ t : Fin cfg0.N, (cfg0.win 5).flush t = true ∧ g ∈ ((cfg0.win 5).blk t).view.set := by
  have h0 : (g 0).val < 4096 := (g 0).isLt
  have h1 : (g 1).val < 4096 := (g 1).isLt
  obtain ⟨t, -, ht⟩ := idx_onto ⟨(g 0).val / 512, by omega⟩ ⟨(g 1).val / 512, by omega⟩
  have q0 : win0_5.index t (0 : Fin 2) = (g 0).val / 512 := congrFun ht 0
  have q1 : win0_5.index t (1 : Fin 2) = (g 1).val / 512 := congrFun ht 1
  refine ⟨t, flush0_5 t, ?_⟩
  rw [mem_blk5]
  intro a
  match a with
  | ⟨0, _⟩ => show win0_5.index t (0 : Fin 2) * 512 ≤ (g 0).val ∧ (g 0).val < win0_5.index t (0 : Fin 2) * 512 + 512; omega
  | ⟨1, _⟩ => show win0_5.index t (1 : Fin 2) * 512 ≤ (g 1).val ∧ (g 1).val < win0_5.index t (1 : Fin 2) * 512 + 512; omega

/-! ## The arrays after the grid, and the second result after the test against zero -/

/-- After the grid the first result array is `distArr` of the arguments. -/
theorem dist_final (c : Dev nD) :
    (dats m 0 c).arrAt 4 cfg0.N = distArr (m ((c : Thread nD τ).loc main_arg0)) (m ((c : Thread nD τ).loc main_arg1)) :=
  (dats m 0 c).arrAt_eq_of_cover 4 _ (fun t _ => dist_flushed m c t) cover4

/-- After the grid the word array is the zero-extended `maskArr` of the arguments. -/
theorem words_final (c : Dev nD) :
    (dats m 0 c).arrAt 5 cfg0.N = maskWords (m ((c : Thread nD τ).loc main_arg0)) (m ((c : Thread nD τ).loc main_arg1)) :=
  (dats m 0 c).arrAt_eq_of_cover 5 _ (fun t _ => mask_flushed m c t) cover5

/-- The second result: each stored word tested against `0` gives the edge bit back, so it is `maskArr`. -/
theorem mask_final (c : Dev nD) :
    Pipeline.afterTail₀ cfgs (dats m) 0 (V0 m) [hostOps1] c main_v6
      = maskArr (m ((c : Thread nD τ).loc main_arg0)) (m ((c : Thread nD τ).loc main_arg1)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v3_1)
      = maskWords (m ((c : Thread nD τ).loc main_arg0)) (m ((c : Thread nD τ).loc main_arg1)) :=
    (Pipeline.withArrays_arr spec0 launch0.win.arr_inj c _ _ 5).trans (words_final m c)
  funext g
  refine Eq.trans ?_ (ne_zero_setWidth (maskArr (m ((c : Thread nD τ).loc main_arg0)) (m ((c : Thread nD τ).loc main_arg1)) g))
  exact congrArg (fun w => IntOp.cmpi .ne w 0#32) (congrFun hw g)

/-! ## The run -/

/-- Every weakly fair execution of the program ends with the first result at `distArr` and the second at `maskArr` of the
    argument arrays, and the arguments unchanged. -/
theorem run : θ_run defs (onTc (τ := τ) (main (F := Ideal))) ⟨m, fun _ => 0, ρ⟩ fun r => ∀ c : Dev nD,
      r.2.mem ((c : Thread nD τ).loc main_v3_0)
        = distArr (m ((c : Thread nD τ).loc main_arg0)) (m ((c : Thread nD τ).loc main_arg1))
      ∧ r.2.mem ((c : Thread nD τ).loc main_v6)
        = maskArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 4).trans (dist_final m c),
      ((h c).2 main_v6 (Pipeline.mem_restRefs_of main_v6 (by decide) (by decide))).trans (mask_final m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Whole

end
-- ==== Proof.lean ====
/-
  The radius-graph kernel and its reference compute the same two arrays.

  Both programs take `n = 4096` points with three coordinates each and a graph label per point, and return, over
  all ordered pairs `(p, q)`: the edge mask (same label, `p ≠ q`, squared distance at most `25`) and the distance on
  the edges, `0` elsewhere (`Cert.Radius`, Proof/Spec.lean). The kernel works tile by tile on a grid of 8 × 8 tiles of
  512 × 512 pairs, from the positions and their transpose, and writes the mask as 32-bit words that are tested
  against `0` after the grid; the reference forms the `n × n × 3` array of coordinate differences and sums its
  squares over the last axis. Read at the extended reals, where every float operation is the exact one, the two
  agree entry by entry: the only difference in the arithmetic is that the kernel adds the three squares left to
  right while the reference adds them to an initial `0`, and addition of extended reals is associative with unit
  `0`, infinities included — so the precondition (finite inputs) is never opened.

  The pieces: Proof/KernelTile.lean (one tile of the kernel at one entry), Proof/KernelWhole.lean (tiles to the two
  result arrays, and the test against `0` after the grid), Proof/RefValue.lean (the reference's two results), each
  against the one specification. The three frames are the frame certificates of the two kernels' programs and the
  reference's run with its results dropped; the idealized kernel is the kernel's own text read at the extended reals,
  so nothing is owed for `preserves`.
-/
import proofs.«122007_j29265907155594_1_alg».proof.Defs
import proofs.«122007_j29265907155594_1_alg».proof.Proof.Gen.Kernel
import proofs.«122007_j29265907155594_1_alg».proof.Proof.Gen.Kernel.Skeleton
import proofs.«122007_j29265907155594_1_alg».proof.Proof.Gen.Kernel.Launch
import proofs.«122007_j29265907155594_1_alg».proof.Proof.Gen.Kernel.Points
import proofs.«122007_j29265907155594_1_alg».proof.Proof.FrameKernel
import proofs.«122007_j29265907155594_1_alg».proof.Proof.Gen.KernelIdeal
import proofs.«122007_j29265907155594_1_alg».proof.Proof.Gen.KernelIdeal.Skeleton
import proofs.«122007_j29265907155594_1_alg».proof.Proof.Gen.KernelIdeal.Launch
import proofs.«122007_j29265907155594_1_alg».proof.Proof.Gen.KernelIdeal.Points
import proofs.«122007_j29265907155594_1_alg».proof.Proof.FrameKernelIdeal
import proofs.«122007_j29265907155594_1_alg».proof.Proof.Gen.ReferenceIdeal
import proofs.«122007_j29265907155594_1_alg».proof.Proof.Gen.ReferenceIdeal.Run
import proofs.«122007_j29265907155594_1_alg».proof.Proof.Gen.ReferenceIdeal.Read
import proofs.«122007_j29265907155594_1_alg».proof.Proof.Gen.Pre_finite_inputs
import proofs.«122007_j29265907155594_1_alg».proof.Proof.RefValue
import proofs.«122007_j29265907155594_1_alg».proof.Proof.KernelWhole
import Idealize.ShloMosaic.Adequacy
import Idealize.ShloMosaic.Init

noncomputable section

namespace Cert.Proof

open Idealize.ShloMosaic Idealize.ShloMosaic.TcCoe Idealize.SL.Sem Cert.Radius

/-- The kernel as printed runs to the end, faults nowhere and leaves its arguments as they were. -/
theorem frame_kernel : Cert.frame_Kernel := fun m ρ _ => Cert.Kernel.GenP.frame m ρ

/-- So does the kernel read at the extended reals. -/
theorem frame_kernelIdeal : Cert.frame_KernelIdeal := fun m ρ _ => Cert.KernelIdeal.GenP.frame m ρ

/-- And the reference: its run, with the two results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- From memories that agree on the positions and the labels, both programs end with the distances at `distArr` and
    the mask at `maskArr` of those arguments. -/
theorem algebraic : Cert.algebraic_KernelIdeal_ReferenceIdeal := by
  intro m ρ m' ρ' _ hagree
  refine ⟨fun c => distArr (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => maskArr (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · exact (Cert.ReferenceIdeal.Read.val_main_v24_eq m' c).trans
      ((Cert.ReferenceIdeal.RefValue.dist_eq _ _).trans (by rw [(hagree c).1, (hagree c).2]))
  · exact (Cert.ReferenceIdeal.Read.val_main_v21_eq _ _).trans
      ((Cert.ReferenceIdeal.RefValue.mask_eq _ _).trans (by rw [(hagree c).1, (hagree c).2]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
